-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x11008 : Shape := ⟨3, ![2, 2048, 11008]⟩
abbrev S5636096 : Shape := ⟨1, ![5636096]⟩
abbrev S32768x8 : Shape := ⟨2, ![32768, 8]⟩
abbrev S4096x1 : Shape := ⟨2, ![4096, 1]⟩
abbrev S_ : Shape := ⟨0, ![]⟩

class Facts : Prop where
  bcast_S_S2x2048x11008 : S_.BroadcastsInDim S2x2048x11008 (![] : Fin 0 → Fin S2x2048x11008.rank)
  reducesTo_S2x2048x11008_S_d0_1_2 : S2x2048x11008.ReducesTo [0, 1, 2] S_
  h_S_ : 0 < S_.numel
  bcast_S_S32768x8 : S_.BroadcastsInDim S32768x8 (![] : Fin 0 → Fin S32768x8.rank)
  reducesTo_S32768x8_S_d0_1 : S32768x8.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S2x2048x11008 .f32) (main_arg1 : IVec S5636096 32) (main_arg2 : FVec F S32768x8 .f32) (main_arg3 : FVec F S4096x1 .f32) : IVec S_ 1 :=
  let main_v0 : FVec F S2x2048x11008 .f32 := Host.absf main_arg0
  let main_cst : FVec F S_ .f32 := constant S_ .f32 0x7F800000#32
  let main_v1 : FVec F S2x2048x11008 .f32 := broadcastInDim S2x2048x11008 ![] bcast_S_S2x2048x11008 main_cst
  let main_v2 : IVec S2x2048x11008 1 := cmpf .olt main_v0 main_v1
  let main_c : IVec S_ 1 := constantI S_ 1 1#1
  let main_v3 : IVec S_ 1 := (fun x v => Host.reduce IntOp.andi x v reducesTo_S2x2048x11008_S_d0_1_2 h_S_) main_v2 main_c
  let main_v4 : FVec F S32768x8 .f32 := Host.absf main_arg2
  let main_cst_0 : FVec F S_ .f32 := constant S_ .f32 0x7F800000#32
  let main_v5 : FVec F S32768x8 .f32 := broadcastInDim S32768x8 ![] bcast_S_S32768x8 main_cst_0
  let main_v6 : IVec S32768x8 1 := cmpf .olt main_v4 main_v5
  let main_c_1 : IVec S_ 1 := constantI S_ 1 1#1
  let main_v7 : IVec S_ 1 := (fun x v => Host.reduce IntOp.andi x v reducesTo_S32768x8_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  main_v13
-- ==== Kernel.lean ====
abbrev S2x2048x11008 : Shape := ⟨3, ![2, 2048, 11008]⟩
abbrev S5636096 : Shape := ⟨1, ![5636096]⟩
abbrev S32768x8 : Shape := ⟨2, ![32768, 8]⟩
abbrev S4096x1 : Shape := ⟨2, ![4096, 1]⟩
abbrev S_ : Shape := ⟨0, ![]⟩
abbrev S5636096x1 : Shape := ⟨2, ![5636096, 1]⟩
abbrev S5636096x8 : Shape := ⟨2, ![5636096, 8]⟩
abbrev S4096x11008 : Shape := ⟨2, ![4096, 11008]⟩
abbrev S4096x11264 : Shape := ⟨2, ![4096, 11264]⟩
abbrev S4096x4096 : Shape := ⟨2, ![4096, 4096]⟩
abbrev S2x2048x4096 : Shape := ⟨3, ![2, 2048, 4096]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 27
  | .vmem => 6
  | .smem => 0
  | _ => 0

abbrev bufTy : (tb : Table) → Fin (tcTables nBuf tb) → BufTy
  | .hbm, ⟨0, _⟩ => ⟨S2x2048x11008, .f32⟩
  | .hbm, ⟨1, _⟩ => ⟨S5636096, .i32⟩
  | .hbm, ⟨2, _⟩ => ⟨S32768x8, .f32⟩
  | .hbm, ⟨3, _⟩ => ⟨S4096x1, .f32⟩
  | .hbm, ⟨4, _⟩ => ⟨S_, .i32⟩
  | .hbm, ⟨5, _⟩ => ⟨S5636096, .i32⟩
  | .hbm, ⟨6, _⟩ => ⟨S5636096, .i1⟩
  | .hbm, ⟨7, _⟩ => ⟨S_, .i32⟩
  | .hbm, ⟨8, _⟩ => ⟨S5636096, .i32⟩
  | .hbm, ⟨9, _⟩ => ⟨S5636096, .i32⟩
  | .hbm, ⟨10, _⟩ => ⟨S5636096, .i32⟩
  | .hbm, ⟨11, _⟩ => ⟨S5636096x1, .i32⟩
  | .hbm, ⟨12, _⟩ => ⟨S5636096x8, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .bf16⟩
  | .hbm, ⟨17, _⟩ => ⟨S_, .i32⟩
  | .hbm, ⟨18, _⟩ => ⟨S_, .bf16⟩
  | .hbm, ⟨19, _⟩ => ⟨S4096x11264, .bf16⟩
  | .hbm, ⟨20, _⟩ => ⟨S4096x11008, .f32⟩
  | .hbm, ⟨21, _⟩ => ⟨S4096x11008, .bf16⟩
  | .hbm, ⟨22, _⟩ => ⟨S_, .i32⟩
  | .hbm, ⟨23, _⟩ => ⟨S_, .bf16⟩
  | .hbm, ⟨24, _⟩ => ⟨S4096x11264, .bf16⟩
  | .hbm, ⟨25, _⟩ => ⟨S4096x4096, .f32⟩
  | .hbm, ⟨26, _⟩ => ⟨S2x2048x4096, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | _, _ => ⟨S2x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c_1 : Ref sig .tc := ⟨.hbm, 17, rfl⟩
abbrev main_call0_call0_v0 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_c_2 : Ref sig .tc := ⟨.hbm, 22, rfl⟩
abbrev main_call0_call1_v0 : Ref sig .tc := ⟨.hbm, 23, rfl⟩
abbrev main_call0_v14 : Ref sig .tc := ⟨.hbm, 24, rfl⟩
abbrev main_call0_v15 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 22], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S5636096 : S_.BroadcastsInDim S5636096 (![] : Fin 0 → Fin S5636096.rank)
  bcast_S5636096_S5636096x1_0 : S5636096.BroadcastsInDim S5636096x1 (![0] : Fin 1 → Fin S5636096x1.rank)
  shapeCasts_S5636096x8_S4096x11008 : S5636096x8.ShapeCasts S4096x11008
  bcast_S4096x1_S4096x11008_0_1 : S4096x1.BroadcastsInDim S4096x11008 (![0, 1] : Fin 2 → Fin S4096x11008.rank)
  bitsLt_bf16_f32 : FTy.bits .bf16 < FTy.bits .f32
  pads_S4096x11008_S4096x11264_000_02560 : S4096x11008.Pads (![0, 0] : Fin 2 → Nat) ![0, 256] ![0, 0] S4096x11264
  h_S_ : 0 < S_.numel
  shapeCasts_S2x2048x11008_S4096x11008 : S2x2048x11008.ShapeCasts S4096x11008
  shapeCasts_S4096x4096_S2x2048x4096 : S4096x4096.ShapeCasts S2x2048x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  gather_S32768x8_S5636096x1_S5636096x8_1_0_n_n_0_1_18_wf : GatherDims.WF S32768x8 S5636096x1 S5636096x8 [1] [0] [] [0] [] 1 ![1, 8]
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x11264.size a
  hwx0_0 : ∀ i : grid0.Coords, EltTy.bits .bf16 = 32 ∨ (Rect.block (s := S4096x11264) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x11264.size a
  hwx0_1 : ∀ i : grid0.Coords, EltTy.bits .bf16 = 32 ∨ (Rect.block (s := S4096x11264) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .f32 = 32 ∨ (Rect.block (s := S4096x4096) S1024x2048.size (cc0_transform_2 i) (hinb0_2 i)).WholeWords (EltTy.packing .f32)

variable [Facts₀]

def gather_S32768x8_S5636096x1_S5636096x8_1_0_n_n_0_1_18 : GatherDims S32768x8 S5636096x1 S5636096x8 where
  offsetDims := [1]
  collapsedSliceDims := [0]
  operandBatchingDims := []
  startIndicesBatchingDims := []
  startIndexMap := [0]
  indexVectorDim := 1
  sliceSizes := ![1, 8]
  wf := gather_S32768x8_S5636096x1_S5636096x8_1_0_n_n_0_1_18_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_call0_v14) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x11008 : Shape := ⟨3, ![2, 2048, 11008]⟩
abbrev S5636096 : Shape := ⟨1, ![5636096]⟩
abbrev S32768x8 : Shape := ⟨2, ![32768, 8]⟩
abbrev S4096x1 : Shape := ⟨2, ![4096, 1]⟩
abbrev S_ : Shape := ⟨0, ![]⟩
abbrev S5636096x1 : Shape := ⟨2, ![5636096, 1]⟩
abbrev S5636096x8 : Shape := ⟨2, ![5636096, 8]⟩
abbrev S4096x11008 : Shape := ⟨2, ![4096, 11008]⟩
abbrev S2x2048x4096 : Shape := ⟨3, ![2, 2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x11008, .f32⟩
  | .hbm, ⟨1, _⟩ => ⟨S5636096, .i32⟩
  | .hbm, ⟨2, _⟩ => ⟨S32768x8, .f32⟩
  | .hbm, ⟨3, _⟩ => ⟨S4096x1, .f32⟩
  | .hbm, ⟨4, _⟩ => ⟨S_, .i32⟩
  | .hbm, ⟨5, _⟩ => ⟨S5636096, .i32⟩
  | .hbm, ⟨6, _⟩ => ⟨S5636096, .i1⟩
  | .hbm, ⟨7, _⟩ => ⟨S_, .i32⟩
  | .hbm, ⟨8, _⟩ => ⟨S5636096, .i32⟩
  | .hbm, ⟨9, _⟩ => ⟨S5636096, .i32⟩
  | .hbm, ⟨10, _⟩ => ⟨S5636096, .i32⟩
  | .hbm, ⟨11, _⟩ => ⟨S5636096x1, .i32⟩
  | .hbm, ⟨12, _⟩ => ⟨S5636096x8, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S2x2048x4096, .f32⟩
  | _, _ => ⟨S2x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S5636096 : S_.BroadcastsInDim S5636096 (![] : Fin 0 → Fin S5636096.rank)
  bcast_S5636096_S5636096x1_0 : S5636096.BroadcastsInDim S5636096x1 (![0] : Fin 1 → Fin S5636096x1.rank)
  shapeCasts_S5636096x8_S4096x11008 : S5636096x8.ShapeCasts S4096x11008
  bcast_S4096x1_S4096x11008_0_1 : S4096x1.BroadcastsInDim S4096x11008 (![0, 1] : Fin 2 → Fin S4096x11008.rank)
  gather_S32768x8_S5636096x1_S5636096x8_1_0_n_n_0_1_18_wf : GatherDims.WF S32768x8 S5636096x1 S5636096x8 [1] [0] [] [0] [] 1 ![1, 8]
  dot_S2x2048x11008_S4096x11008_S2x2048x4096_2_1_01_0_n_n_wf : DotDims.WF S2x2048x11008 S4096x11008 S2x2048x4096 [2] [1] [0, 1] [0] [] []

variable [Facts₀]

def gather_S32768x8_S5636096x1_S5636096x8_1_0_n_n_0_1_18 : GatherDims S32768x8 S5636096x1 S5636096x8 where
  offsetDims := [1]
  collapsedSliceDims := [0]
  operandBatchingDims := []
  startIndicesBatchingDims := []
  startIndexMap := [0]
  indexVectorDim := 1
  sliceSizes := ![1, 8]
  wf := gather_S32768x8_S5636096x1_S5636096x8_1_0_n_n_0_1_18_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Body.lean ====
/-
  One grid point of the matrix product, as a value.

  At a grid point (i, j, k) the body holds a 1024 x 512 block `a` of the left operand, a 2048 x 512 block `b` of the
  right operand and the resident 1024 x 2048 output block `o`. When k = 0 it first overwrites `o` with zeros; then it
  leaves `o + a bᵀ` in the output block. So the block after the point is `step o a b`, with `o` the zero block in the
  first case. Read at entry (p, q) over the extended reals, `step o a b` is `o(p, q) + Σ_{l < 512} a(p, l) · b(q, l)`.
-/
import proofs.«102673_j30021821399184_2_alg».proof.Proof.Gen.KernelIdeal.Frame
import proofs.«102673_j30021821399184_2_alg».proof.Proof.LibContract
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The block a point leaves: the block it found plus the product of the two operand blocks. -/
abbrev step (o : Vec F S1024x2048 .f32) (a : Vec F S1024x512 .bf16) (b : Vec F S2048x512 .bf16) : Vec F S1024x2048 .f32 :=
  k0_pay2 o a b

/-- The zero block the first point of a contraction stores before accumulating. -/
abbrev zeroBlock : Vec F S1024x2048 .f32 := k0_pay1

/-- A point with k ≠ 0: the output block `o` it finds becomes `o + a bᵀ`. -/
theorem out_B (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (hc : ¬cond0_0 i) (x0 : Vec F S1024x512 .bf16) (x1 : Vec F S2048x512 .bf16) (xo : Vec F S1024x2048 .f32) :
    out0_B_2 c i a3 h3 a4 h4 a5 h5 hc x0 x1 xo = step xo x0 x1 := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread, View.ld_unit_zero (S := S1024x2048) hz,
    View.ld_unit_zero (S := S1024x512) hz, View.ld_unit_zero (S := S2048x512) hz]

/-- A point with k = 0: the zero block is stored, read back, and becomes `0 + a bᵀ`. -/
theorem out_A (c : Dev nD) (i : grid0.Coords) (a3 : Memref sig .tc .vmem S1024x512 .bf16) (h3 : a3.IsWhole)
    (a4 : Memref sig .tc .vmem S2048x512 .bf16) (h4 : a4.IsWhole) (a5 : Memref sig .tc .vmem S1024x2048 .f32) (h5 : a5.IsWhole)
    (hc : cond0_0 i) (x0 : Vec F S1024x512 .bf16) (x1 : Vec F S2048x512 .bf16) :
    out0_A_2 c i a3 h3 a4 h4 a5 h5 hc x0 x1 = step zeroBlock x0 x1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x512) hz,
    View.ld_unit_zero (S := S2048x512) hz]

/-- The zero block is zero at every entry. -/
theorem zeroBlock_apply (j : S1024x2048.Idx) : zeroBlock (F := Ideal) j = 0 := by
  show Ideal.ofBits .f32 0x00000000#32 = 0
  exact Ideal.ofBits_zero_f32

/-- The block product's contraction: rows of `a` against rows of `b`, the last axis of each contracted. -/
abbrev blockDot : DotDims S1024x512 S2048x512 S1024x2048 := dot_S1024x512_S2048x512_S1024x2048_1_1_0_0_n_n

/-- At output entry `j` and contraction coordinate `κ` the left operand is read at row `j 0`, -/
theorem lhs_row (j : S1024x2048.Idx) (κ : blockDot.contr.Idx) : (blockDot.lhsIdx j κ 0).val = (j 0).val := by
  unfold DotDims.lhsIdx
  rw [dif_neg (show ¬(0 : Fin S1024x512.rank) ∈ blockDot.lhsBatch by decide),
    dif_pos (show (0 : Fin S1024x512.rank) ∈ blockDot.lhsNonContracting by decide)]
  rfl
/-- column `κ`; -/
theorem lhs_col (j : S1024x2048.Idx) (κ : blockDot.contr.Idx) : (blockDot.lhsIdx j κ 1).val = (κ ⟨0, by decide⟩).val :=
  blockDot.lhsIdx_val_of_single rfl j κ
/-- the right operand at row `j 1`, -/
theorem rhs_row (j : S1024x2048.Idx) (κ : blockDot.contr.Idx) : (blockDot.rhsIdx j κ 0).val = (j 1).val := by
  unfold DotDims.rhsIdx
  rw [dif_neg (show ¬(0 : Fin S2048x512.rank) ∈ blockDot.rhsBatch by decide),
    dif_pos (show (0 : Fin S2048x512.rank) ∈ blockDot.rhsNonContracting by decide)]
  rfl
/-- column `κ`. -/
theorem rhs_col (j : S1024x2048.Idx) (κ : blockDot.contr.Idx) : (blockDot.rhsIdx j κ 1).val = (κ ⟨0, by decide⟩).val :=
  blockDot.rhsIdx_val_of_single rfl j κ

/-- Entry (p, q) of `o + a bᵀ` over the extended reals. -/
theorem step_apply (o : Vec Ideal S1024x2048 .f32) (a : Vec Ideal S1024x512 .bf16) (b : Vec Ideal S2048x512 .bf16)
    (p : Fin 1024) (q : Fin 2048) :
    step (F := Ideal) o a b (ix2 p q) = o (ix2 p q) + ∑ l : Fin 512, a (ix2 p l) * b (ix2 q l) := by
  unfold step k0_pay2
  simp only [shapeCast_self]
  rw [addf_apply]
  congr 1
  refine ContractSingle.matmul_zero_single blockDot none 512 rfl rfl _ _ _
    (fun l => a (ix2 p l)) (fun l => b (ix2 q l)) (fun l => ?_) (fun l => ?_)
  · have hl := contrEquiv1_symm_val blockDot 512 rfl rfl l
    exact congrArg a (funext fun x => Fin.ext (by
      match x with
      | ⟨0, _⟩ => exact lhs_row _ _
      | ⟨1, _⟩ => exact (lhs_col _ _).trans hl))
  · have hl := contrEquiv1_symm_val blockDot 512 rfl rfl l
    exact congrArg b (funext fun x => Fin.ext (by
      match x with
      | ⟨0, _⟩ => exact rhs_row _ _
      | ⟨1, _⟩ => exact (rhs_col _ _).trans hl))

end Cert.KernelIdeal.Body

end
-- ==== Proof.Sums.lean ====
/-
  Two facts about finite sums over an initial segment of the naturals, in any commutative additive monoid
  (used at the extended reals, where addition is associative and commutative and `0` is neutral, with no
  finiteness assumption).

  * A contraction of length `b · (n + 1)` accumulated block by block: the first `b · n` terms, then the next `b`.
  * A contraction whose terms vanish from position `n` on (operands padded with zeros) is the sum of its first `n` terms.
-/
import Mathlib.Algebra.BigOperators.Fin

namespace Cert.Sums

open Finset

/-- The sum of the first `b · (n + 1)` terms is the sum of the first `b · n` plus the `b` terms of block `n`. -/
theorem sum_range_block {M : Type*} [AddCommMonoid M] (f : ℕ → M) (b n : ℕ) :
    ∑ k ∈ range (b * (n + 1)), f k = ∑ k ∈ range (b * n), f k + ∑ l : Fin b, f (b * n + l.val) := by
  rw [Nat.mul_succ, sum_range_add, ← Fin.sum_univ_eq_sum_range (fun l => f (b * n + l)) b]

/-- The first block alone. -/
theorem sum_range_first {M : Type*} [AddCommMonoid M] (f : ℕ → M) (b : ℕ) :
    ∑ k ∈ range (b * (0 + 1)), f k = ∑ l : Fin b, f (b * 0 + l.val) := by
  rw [sum_range_block, Nat.mul_zero, range_zero, sum_empty, zero_add]

/-- Terms that vanish from position `n` on contribute nothing. -/
theorem sum_range_tail_zero {M : Type*} [AddCommMonoid M] (f : ℕ → M) (n p : ℕ) (h : ∀ k, n ≤ k → f k = 0) :
    ∑ k ∈ range (n + p), f k = ∑ k : Fin n, f k.val := by
  rw [sum_range_add, sum_eq_zero (fun k _ => h (n + k) (Nat.le_add_right n k)), add_zero,
    ← Fin.sum_univ_eq_sum_range f n]

end Cert.Sums
-- ==== Proof.Spec.lean ====
/-
  The linear layer, stated once for both programs, and the padded contraction that computes it.

  With activations x[2, 2048, 11008] and a weight matrix w[4096, 11008] the layer's output is
      y[b, s, o] = Σ_{k < 11008} x[b, s, k] · w[o, k].
  The kernel computes it on row r = 2048 · b + s of the reshaped activations, over operands padded with zeros to 11264
  columns: the padded contraction's terms vanish from column 11008 on, because both padded factors are zero there and
  0 · 0 = 0, so the longer sum is the shorter one. Nothing here needs the entries to be finite: only that addition over
  the extended reals is associative and commutative with neutral element 0.
-/
import proofs.«102673_j30021821399184_2_alg».proof.Proof.Sums
import Idealize.ShloMosaic.PureOps.Ideal
import Idealize.ShloMosaic.Lib.ValueIdx

noncomputable section

open Idealize.ShloMosaic Idealize.ShloMosaic.ValueIdx

namespace Cert.Spec

abbrev ActShape : Shape := ⟨3, ![2, 2048, 11008]⟩
abbrev WeightShape : Shape := ⟨2, ![4096, 11008]⟩
abbrev OutShape : Shape := ⟨3, ![2, 2048, 4096]⟩

/-- One output entry of the layer. -/
def linearAt (x : ActShape.Idx → EReal) (w : WeightShape.Idx → EReal) (b : Fin 2) (s : Fin 2048) (o : Fin 4096) : EReal :=
  ∑ k : Fin 11008, x (ix3 b s k) * w (ix2 o k)

/-- The layer's output array. -/
def linear (x : ActShape.Idx → EReal) (w : WeightShape.Idx → EReal) : OutShape.Idx → EReal :=
  fun i => linearAt x w ⟨(i 0).val, (i 0).isLt⟩ ⟨(i 1).val, (i 1).isLt⟩ ⟨(i 2).val, (i 2).isLt⟩

/-- The activations reshaped to 4096 rows and padded with zeros, at natural-number coordinates: row `r` is
    (r / 2048, r % 2048); zero outside the 11008 columns (and outside the rows). -/
def actRow (x : ActShape.Idx → EReal) (r k : ℕ) : EReal :=
  if h : r < 4096 ∧ k < 11008 then
    x (ix3 (⟨r / 2048, by omega⟩ : Fin 2) (⟨r % 2048, Nat.mod_lt _ (by norm_num)⟩ : Fin 2048) (⟨k, h.2⟩ : Fin 11008))
  else 0

/-- The weight matrix padded with zeros, at natural-number coordinates. -/
def weightRow (w : WeightShape.Idx → EReal) (o k : ℕ) : EReal :=
  if h : o < 4096 ∧ k < 11008 then w (ix2 (⟨o, h.1⟩ : Fin 4096) (⟨k, h.2⟩ : Fin 11008)) else 0

/-- The contraction of row `r` of the padded activations with row `o` of the padded weights, over the first `n` columns. -/
def prefixSum (x : ActShape.Idx → EReal) (w : WeightShape.Idx → EReal) (r o n : ℕ) : EReal :=
  ∑ k ∈ Finset.range n, actRow x r k * weightRow w o k

/-- Accumulating one more block of 512 columns. -/
theorem prefix_block (x : ActShape.Idx → EReal) (w : WeightShape.Idx → EReal) (r o n : ℕ) :
    prefixSum x w r o (512 * (n + 1))
      = prefixSum x w r o (512 * n) + ∑ l : Fin 512, actRow x r (512 * n + l.val) * weightRow w o (512 * n + l.val) :=
  Cert.Sums.sum_range_block (fun k => actRow x r k * weightRow w o k) 512 n

/-- The first block alone. -/
theorem prefix_first (x : ActShape.Idx → EReal) (w : WeightShape.Idx → EReal) (r o : ℕ) :
    prefixSum x w r o (512 * (0 + 1)) = ∑ l : Fin 512, actRow x r (512 * 0 + l.val) * weightRow w o (512 * 0 + l.val) :=
  Cert.Sums.sum_range_first (fun k => actRow x r k * weightRow w o k) 512

/-- All 22 blocks: the padded contraction over 11264 columns is the layer's entry. -/
theorem prefix_full (x : ActShape.Idx → EReal) (w : WeightShape.Idx → EReal) (b : Fin 2) (s : Fin 2048) (o : Fin 4096) :
    prefixSum x w (2048 * b.val + s.val) o.val 11264 = linearAt x w b s o := by
  unfold prefixSum linearAt
  rw [show (11264 : ℕ) = 11008 + 256 from rfl,
    Cert.Sums.sum_range_tail_zero (fun k => actRow x (2048 * b.val + s.val) k * weightRow w o.val k) 11008 256
      (fun k hk => by
        show actRow x (2048 * b.val + s.val) k * weightRow w o.val k = 0
        unfold actRow
        rw [dif_neg (fun h => by omega), zero_mul])]
  refine Finset.sum_congr rfl fun k _ => ?_
  have hb := b.isLt
  have hs := s.isLt
  have ho := o.isLt
  have hk := k.isLt
  show actRow x (2048 * b.val + s.val) k.val * weightRow w o.val k.val = _
  unfold actRow weightRow
  rw [dif_pos ⟨by omega, hk⟩, dif_pos ⟨ho, hk⟩]
  congr 2
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

end Cert.Spec

end
-- ==== Proof.Operands.lean ====
/-
  The two operand matrices as the matrix-product region finds them, read entry by entry.

  Before the region the program reshapes the activations x[2, 2048, 11008] to 4096 rows of 11008 entries, builds the
  dequantised weight matrix w[4096, 11008] (code-book rows gathered, reshaped, each row scaled), changes both to a
  narrower float format (the identity over the extended reals) and pads each row on the right with 256 zeros, to 11264
  columns = 22 blocks of 512. So entry (r, k) of the padded left operand is x[r / 2048, r % 2048, k] for k < 11008 and 0 from
  there on, and entry (o, k) of the padded right operand is w[o, k] for k < 11008 and 0 from there on.
-/
import proofs.«102673_j30021821399184_2_alg».proof.Proof.Gen.KernelIdeal.Frame
import proofs.«102673_j30021821399184_2_alg».proof.Proof.Spec
import Idealize.ShloMosaic.Lib.Pipeline.Value
import Idealize.ShloMosaic.Lib.ValueIdx
import Idealize.ShloMosaic.Lib.KernelVsHost
import Idealize.ShloMosaic.Lib.StableHlo.Run
import Idealize.ShloMosaic.PureOps.Ideal.Laws

noncomputable section

open Idealize.ShloMosaic Idealize.ShloMosaic.TcCoe Idealize.SL.Sem
open Idealize.ShloMosaic.ValueIdx

namespace Cert.KernelIdeal.Operands

open Cert.KernelIdeal Cert.KernelIdeal.Gen

variable {F : FTy → Type} [FloatOps F]

/-- The dequantised weight matrix: row `o`, column `k` is entry `(o · 11008 + k) % 8` of the code-book row that index
    `(o · 11008 + k) / 8` selects (a negative index counted from the end), times row `o`'s scale. Both programs build it
    with the same operations, so it is carried as one term and never opened. -/
def weight (idx : IVec S5636096 32) (cb : FVec F S32768x8 .f32) (sc : FVec F S4096x1 .f32) : FVec F S4096x11008 .f32 :=
  mulf (shapeCast S4096x11008 (Host.gather gather_S32768x8_S5636096x1_S5636096x8_1_0_n_n_0_1_18 cb
      (broadcastInDim S5636096x1 ![0] bcast_S5636096_S5636096x1_0
        (select (cmpi .slt idx (broadcastInDim S5636096 ![] bcast_S_S5636096 (constantI S_ 32 0#32)))
          (addi idx (broadcastInDim S5636096 ![] bcast_S_S5636096 (constantI S_ 32 32768#32))) idx)))
    shapeCasts_S5636096x8_S4096x11008)
    (broadcastInDim S4096x11008 ![0, 1] bcast_S4096x1_S4096x11008_0_1 sc)

/-- A matrix of 11008 columns padded on the right to 11264 columns with the converted integer zero. -/
def padCols (x : FVec F S4096x11008 .bf16) : FVec F S4096x11264 .bf16 :=
  pad S4096x11264 ![0, 0] ![0, 256] ![0, 0] x (sitofp .bf16 (constantI S_ 32 0#32)) pads_S4096x11008_S4096x11264_000_02560 h_S_

variable (m : (ℓ : Loc nD τ sig) → Buf (Elt F) ℓ)

/-- The left operand the region finds: the activations reshaped to rows, narrowed, padded. -/
theorem lhs_eq (c : Dev nD) :
    (V m c main_call0_v14 : FVec F S4096x11264 .bf16)
      = padCols (truncf .bf16 (shapeCast S4096x11008 (m ((c : Thread nD τ).loc main_arg0)) shapeCasts_S2x2048x11008_S4096x11008) bitsLt_bf16_f32) := by
  show StableHlo.after hostOps0 (fun b => m (c, b)) (Proc.devRef .tc main_call0_v14) = _
  after_results
  rfl

/-- The right operand the region finds: the weight matrix narrowed, padded. -/
theorem rhs_eq (c : Dev nD) :
    (V m c main_call0_v11 : FVec F S4096x11264 .bf16)
      = padCols (truncf .bf16 (weight (m ((c : Thread nD τ).loc main_arg1)) (m ((c : Thread nD τ).loc main_arg2)) (m ((c : Thread nD τ).loc main_arg3))) bitsLt_bf16_f32) := by
  show StableHlo.after hostOps0 (fun b => m (c, b)) (Proc.devRef .tc main_call0_v11) = _
  after_results
  rfl

/-! ## Read entry by entry, over the extended reals -/

/-- A padded row inside the original columns is the original entry. -/
theorem padCols_apply_lt (y : FVec Ideal S4096x11008 .bf16) (r : Fin 4096) (k : Fin 11264) (hk : k.val < 11008) :
    padCols y (ix2 r k) = y (ix2 r (⟨k.val, hk⟩ : Fin 11008)) := by
  unfold padCols
  exact pad_apply_of_inside _ _ _ y _ _ _ (ix2 r k) (ix2 r (⟨k.val, hk⟩ : Fin 11008)) (fun a => by
    match a with
    | ⟨0, _⟩ => show r.val = 0 + r.val * (0 + 1); omega
    | ⟨1, _⟩ => show k.val = 0 + k.val * (0 + 1); omega)

/-- A padded row from column 11008 on is zero. -/
theorem padCols_apply_ge (y : FVec Ideal S4096x11008 .bf16) (r : Fin 4096) (k : Fin 11264) (hk : 11008 ≤ k.val) :
    padCols y (ix2 r k) = 0 := by
  unfold padCols
  refine (pad_apply_of_not_inside _ _ _ y _ _ _ (ix2 r k) (1 : Fin 2) (fun h => ?_)).trans ?_
  · have h3 : (k.val - 0) / (0 + 1) < 11008 := h.2.2
    omega
  · exact sitofp_zero

variable (mI : (ℓ : Loc nD τ sig) → Buf (Elt Ideal) ℓ)

/-- The activations the program is launched with, -/
abbrev acts (c : Dev nD) : Cert.Spec.ActShape.Idx → EReal := mI ((c : Thread nD τ).loc main_arg0)
/-- and the weight matrix it dequantises. -/
abbrev wts (c : Dev nD) : Cert.Spec.WeightShape.Idx → EReal :=
  weight (F := Ideal) (mI ((c : Thread nD τ).loc main_arg1)) (mI ((c : Thread nD τ).loc main_arg2)) (mI ((c : Thread nD τ).loc main_arg3))

/-- Entry (r, k) of the padded left operand. -/
theorem lhs_apply (c : Dev nD) (r : Fin 4096) (k : Fin 11264) :
    V mI c main_call0_v14 (ix2 r k) = Cert.Spec.actRow (acts mI c) r.val k.val := by
  rw [lhs_eq]
  unfold Cert.Spec.actRow
  by_cases hk : k.val < 11008
  · refine (padCols_apply_lt _ r k hk).trans ?_
    refine Eq.trans ?_ (dif_pos (⟨r.isLt, hk⟩ : r.val < 4096 ∧ k.val < 11008)).symm
    have hr := r.isLt
    show shapeCast S4096x11008 (mI ((c : Thread nD τ).loc main_arg0)) shapeCasts_S2x2048x11008_S4096x11008 (ix2 r (⟨k.val, hk⟩ : Fin 11008)) = _
    refine shapeCast_apply (s := S2x2048x11008) (t := S4096x11008) _ _ (ix2 r (⟨k.val, hk⟩ : Fin 11008))
      (ix3 (⟨r.val / 2048, by omega⟩ : Fin 2) (⟨r.val % 2048, Nat.mod_lt _ (by norm_num)⟩ : Fin 2048) (⟨k.val, hk⟩ : Fin 11008)) ?_
    rw [Shape.rowMajor_val_three, Shape.rowMajor_val_two]
    show (r.val / 2048 * 2048 + r.val % 2048) * 11008 + k.val = r.val * 11008 + k.val
    omega
  · refine (padCols_apply_ge _ r k (by omega)).trans ?_
    rw [dif_neg (fun h : r.val < 4096 ∧ k.val < 11008 => hk h.2)]

/-- Entry (o, k) of the padded right operand. -/
theorem rhs_apply (c : Dev nD) (o : Fin 4096) (k : Fin 11264) :
    V mI c main_call0_v11 (ix2 o k) = Cert.Spec.weightRow (wts mI c) o.val k.val := by
  rw [rhs_eq]
  unfold Cert.Spec.weightRow
  by_cases hk : k.val < 11008
  · refine (padCols_apply_lt _ o k hk).trans ?_
    refine Eq.trans ?_ (dif_pos (⟨o.isLt, hk⟩ : o.val < 4096 ∧ k.val < 11008)).symm
    rfl
  · refine (padCols_apply_ge _ o k (by omega)).trans ?_
    rw [dif_neg (fun h : o.val < 4096 ∧ k.val < 11008 => hk h.2)]

end Cert.KernelIdeal.Operands

end
-- ==== Proof.Blocks.lean ====
/-
  Which entries of the padded operands a grid point sees.

  The 176 grid points run in row-major order over (i, j, k) ∈ 4 × 2 × 22, so point t has i = t / 44, j = t / 22 % 2,
  k = t % 22. At point t the left operand's block is rows 1024 i … 1024 i + 1023, columns 512 k … 512 k + 511; the right
  operand's block is rows 2048 j … 2048 j + 2047 and the same columns; the output's block is rows 1024 i …, columns 2048 j ….
-/
import proofs.«102673_j30021821399184_2_alg».proof.Proof.Operands

noncomputable section

open Idealize.ShloMosaic Idealize.ShloMosaic.TcCoe Idealize.SL.Sem
open Idealize.ShloMosaic.ValueIdx

namespace Cert.KernelIdeal.Blocks

open Cert.KernelIdeal Cert.KernelIdeal.Gen Cert.KernelIdeal.Operands

/-- The three windows' block indices at point `t`, decided over the grid. -/
theorem idx_facts : ∀ t : Fin cfg0.N,
    win0_0.index t (0 : Fin 2) = t.val / 44 ∧ win0_0.index t (1 : Fin 2) = t.val % 22
    ∧ win0_1.index t (0 : Fin 2) = t.val / 22 % 2 ∧ win0_1.index t (1 : Fin 2) = t.val % 22
    ∧ win0_2.index t (0 : Fin 2) = t.val / 44 ∧ win0_2.index t (1 : Fin 2) = t.val / 22 % 2 :=
  (by decide +kernel : ∀ t : Fin grid0.N, _)

variable (m : (ℓ : Loc nD τ sig) → Buf (Elt Ideal) ℓ)

/-- Entry (p, l) of the left operand's block at point `t`. -/
theorem lhs_block (c : Dev nD) (t : Fin cfg0.N) (p : Fin 1024) (l : Fin 512) :
    (iblk m c 0 t : Vec Ideal S1024x512 .bf16) (ix2 p l)
      = Cert.Spec.actRow (acts m c) (1024 * (t.val / 44) + p.val) (512 * (t.val % 22) + l.val) := by
  have hN : t.val < 176 := lt_of_lt_of_eq t.isLt N_0
  have hp := p.isLt
  have hl := l.isLt
  obtain ⟨e0, e1, -⟩ := idx_facts t
  refine Eq.trans ?_ (lhs_apply m c (⟨1024 * (t.val / 44) + p.val, by omega⟩ : Fin 4096) (⟨512 * (t.val % 22) + l.val, by omega⟩ : Fin 11264))
  unfold iblk
  rw [View.read_apply]
  show V m c main_call0_v14 (((cfg0.win 0).blk t).view.emb (ix2 p l)) = _
  refine congrArg (V m c main_call0_v14) (funext fun a => Fin.ext ?_)
  match a with
  | ⟨0, _⟩ => show win0_0.index t (0 : Fin 2) * 1024 + 1 * p.val = 1024 * (t.val / 44) + p.val; rw [e0]; omega
  | ⟨1, _⟩ => show win0_0.index t (1 : Fin 2) * 512 + 1 * l.val = 512 * (t.val % 22) + l.val; rw [e1]; omega

/-- Entry (q, l) of the right operand's block at point `t`. -/
theorem rhs_block (c : Dev nD) (t : Fin cfg0.N) (q : Fin 2048) (l : Fin 512) :
    (iblk m c 1 t : Vec Ideal S2048x512 .bf16) (ix2 q l)
      = Cert.Spec.weightRow (wts m c) (2048 * (t.val / 22 % 2) + q.val) (512 * (t.val % 22) + l.val) := by
  have hN : t.val < 176 := lt_of_lt_of_eq t.isLt N_0
  have hq := q.isLt
  have hl := l.isLt
  obtain ⟨-, -, e2, e3, -⟩ := idx_facts t
  refine Eq.trans ?_ (rhs_apply m c (⟨2048 * (t.val / 22 % 2) + q.val, by omega⟩ : Fin 4096) (⟨512 * (t.val % 22) + l.val, by omega⟩ : Fin 11264))
  unfold iblk
  rw [View.read_apply]
  show V m c main_call0_v11 (((cfg0.win 1).blk t).view.emb (ix2 q l)) = _
  refine congrArg (V m c main_call0_v11) (funext fun a => Fin.ext ?_)
  match a with
  | ⟨0, _⟩ => show win0_1.index t (0 : Fin 2) * 2048 + 1 * q.val = 2048 * (t.val / 22 % 2) + q.val; rw [e2]; omega
  | ⟨1, _⟩ => show win0_1.index t (1 : Fin 2) * 512 + 1 * l.val = 512 * (t.val % 22) + l.val; rw [e3]; omega

end Cert.KernelIdeal.Blocks

end
-- ==== Proof.Accum.lean ====
/-
  The output block after each grid point is a prefix of the padded contraction.

  Point t = 44 i + 22 j + k works on output rows 1024 i + p and columns 2048 j + q. A point with k = 0 leaves the product of
  its two operand blocks, the first 512 terms of the contraction; a point with k ≠ 0 adds its block product, the next 512
  terms, to what the point before left (same i and j, k − 1). By induction on the point, after point t the block holds the
  contraction over the first 512 (k + 1) columns.
-/
import proofs.«102673_j30021821399184_2_alg».proof.Proof.Body
import proofs.«102673_j30021821399184_2_alg».proof.Proof.Blocks

noncomputable section

open Idealize.ShloMosaic Idealize.ShloMosaic.TcCoe Idealize.SL.Sem
open Idealize.ShloMosaic.ValueIdx

namespace Cert.KernelIdeal.Accum

open Cert.KernelIdeal Cert.KernelIdeal.Gen Cert.KernelIdeal.Operands Cert.Spec

variable (m : (ℓ : Loc nD τ sig) → Buf (Elt Ideal) ℓ)

/-- Entry (p, q) of the product of two operand blocks `a`, `b` that hold, at point `t`, the padded operands' entries:
    512 consecutive terms of the padded contraction. -/
theorem block_product (c : Dev nD) (t : Fin cfg0.N) (p : Fin 1024) (q : Fin 2048)
    (a : Vec Ideal S1024x512 .bf16) (b : Vec Ideal S2048x512 .bf16)
    (ha : ∀ l : Fin 512, a (ix2 p l) = actRow (acts m c) (1024 * (t.val / 44) + p.val) (512 * (t.val % 22) + l.val))
    (hb : ∀ l : Fin 512, b (ix2 q l) = weightRow (wts m c) (2048 * (t.val / 22 % 2) + q.val) (512 * (t.val % 22) + l.val)) :
    ∑ l : Fin 512, a (ix2 p l) * b (ix2 q l)
      = ∑ l : Fin 512, actRow (acts m c) (1024 * (t.val / 44) + p.val) (512 * (t.val % 22) + l.val)
          * weightRow (wts m c) (2048 * (t.val / 22 % 2) + q.val) (512 * (t.val % 22) + l.val) :=
  Finset.sum_congr rfl fun l _ => by rw [ha l, hb l]

/-- A point with k = 0 leaves its block product. -/
theorem point_first (c : Dev nD) (t : Fin cfg0.N) (h0 : t.val % 22 = 0) (p : Fin 1024) (q : Fin 2048) :
    outsAt0 m c t.val t.isLt (ix2 p q)
      = ∑ l : Fin 512, actRow (acts m c) (1024 * (t.val / 44) + p.val) (512 * (t.val % 22) + l.val)
          * weightRow (wts m c) (2048 * (t.val / 22 % 2) + q.val) (512 * (t.val % 22) + l.val) := by
  rw [outsAt0_A m c t h0]
  refine (congrFun (Body.out_A (F := Ideal) c (grid0.coords t) (ms0_0 t) (hs0_0 t) (ms0_1 t) (hs0_1 t) (ms0_2 t) (hs0_2 t)
    ((hcond0_0 t).mpr h0) (iblk m c 0 t) (iblk m c 1 t)) (ix2 p q)).trans ?_
  refine (Body.step_apply Body.zeroBlock (iblk m c 0 t) (iblk m c 1 t) p q).trans ?_
  rw [Body.zeroBlock_apply, zero_add]
  exact block_product m c t p q (iblk m c 0 t) (iblk m c 1 t) (Blocks.lhs_block m c t p) (Blocks.rhs_block m c t q)

/-- A point with k ≠ 0 adds its block product to what the point before left. -/
theorem point_next (c : Dev nD) (t : Fin cfg0.N) (h0 : ¬t.val % 22 = 0) (p : Fin 1024) (q : Fin 2048) :
    outsAt0 m c t.val t.isLt (ix2 p q)
      = outsAt0 m c (t.val - 1) (Nat.lt_of_le_of_lt (Nat.sub_le _ _) t.isLt) (ix2 p q)
        + ∑ l : Fin 512, actRow (acts m c) (1024 * (t.val / 44) + p.val) (512 * (t.val % 22) + l.val)
            * weightRow (wts m c) (2048 * (t.val / 22 % 2) + q.val) (512 * (t.val % 22) + l.val) := by
  rw [outsAt0_B m c t h0]
  refine (congrFun (Body.out_B (F := Ideal) c (grid0.coords t) (ms0_0 t) (hs0_0 t) (ms0_1 t) (hs0_1 t) (ms0_2 t) (hs0_2 t)
    (fun h => h0 ((hcond0_0 t).mp h)) (iblk m c 0 t) (iblk m c 1 t)
    (outsAt0 m c (t.val - 1) (Nat.lt_of_le_of_lt (Nat.sub_le _ _) t.isLt))) (ix2 p q)).trans ?_
  refine (Body.step_apply (outsAt0 m c (t.val - 1) (Nat.lt_of_le_of_lt (Nat.sub_le _ _) t.isLt)) (iblk m c 0 t) (iblk m c 1 t) p q).trans ?_
  rw [block_product m c t p q (iblk m c 0 t) (iblk m c 1 t) (Blocks.lhs_block m c t p) (Blocks.rhs_block m c t q)]

/-- After point `n` the output block holds, at (p, q), the contraction of padded activation row 1024 (n / 44) + p with
    padded weight row 2048 (n / 22 % 2) + q over the first 512 (n % 22 + 1) columns. -/
theorem outsAt_apply (c : Dev nD) : ∀ (n : ℕ) (h : n < cfg0.N) (p : Fin 1024) (q : Fin 2048),
    outsAt0 m c n h (ix2 p q)
      = prefixSum (acts m c) (wts m c) (1024 * (n / 44) + p.val) (2048 * (n / 22 % 2) + q.val) (512 * (n % 22 + 1))
  | 0, h, p, q => by
    refine (point_first m c ⟨0, h⟩ rfl p q).trans ?_
    exact (prefix_first (acts m c) (wts m c) (1024 * (0 / 44) + p.val) (2048 * (0 / 22 % 2) + q.val)).symm
  | n + 1, h, p, q => by
    have hN : n + 1 < 176 := lt_of_lt_of_eq h N_0
    by_cases h0 : (n + 1) % 22 = 0
    · refine (point_first m c ⟨n + 1, h⟩ h0 p q).trans ?_
      show ∑ l : Fin 512, actRow (acts m c) (1024 * ((n + 1) / 44) + p.val) (512 * ((n + 1) % 22) + l.val)
          * weightRow (wts m c) (2048 * ((n + 1) / 22 % 2) + q.val) (512 * ((n + 1) % 22) + l.val)
        = prefixSum (acts m c) (wts m c) (1024 * ((n + 1) / 44) + p.val) (2048 * ((n + 1) / 22 % 2) + q.val) (512 * ((n + 1) % 22 + 1))
      rw [h0]
      exact (prefix_first (acts m c) (wts m c) _ _).symm
    · refine (point_next m c ⟨n + 1, h⟩ h0 p q).trans ?_
      show outsAt0 m c n (Nat.lt_of_succ_lt h) (ix2 p q)
          + ∑ l : Fin 512, actRow (acts m c) (1024 * ((n + 1) / 44) + p.val) (512 * ((n + 1) % 22) + l.val)
            * weightRow (wts m c) (2048 * ((n + 1) / 22 % 2) + q.val) (512 * ((n + 1) % 22) + l.val)
        = prefixSum (acts m c) (wts m c) (1024 * ((n + 1) / 44) + p.val) (2048 * ((n + 1) / 22 % 2) + q.val) (512 * ((n + 1) % 22 + 1))
      rw [outsAt_apply c n (Nat.lt_of_succ_lt h) p q]
      have e1 : n / 44 = (n + 1) / 44 := by omega
      have e2 : n / 22 % 2 = (n + 1) / 22 % 2 := by omega
      have e3 : n % 22 + 1 = (n + 1) % 22 := by omega
      rw [e1, e2, e3]
      exact (prefix_block (acts m c) (wts m c) _ _ ((n + 1) % 22)).symm

end Cert.KernelIdeal.Accum

end
-- ==== Proof.Result.lean ====
/-
  The product matrix the region leaves, and the program's result.

  The output block of rows 1024 i …, columns 2048 j … is written back once, after the last point k = 21 of its contraction,
  when it holds the contraction over all 22 · 512 = 11264 padded columns. The eight blocks tile the 4096 x 4096 product
  matrix, so after the run entry (r, o) of that matrix is the padded contraction of activation row r with weight row o;
  the program's result is that matrix reshaped to [2, 2048, 4096], whose entry (b, s, o) is the linear layer's.
-/
import proofs.«102673_j30021821399184_2_alg».proof.Proof.Accum

noncomputable section

open Idealize.ShloMosaic Idealize.ShloMosaic.TcCoe Idealize.SL.Sem
open Idealize.ShloMosaic.ValueIdx
open Idealize.ShloMosaic.Pipeline (Dat)

namespace Cert.KernelIdeal.Result

open Cert.KernelIdeal Cert.KernelIdeal.Gen Cert.KernelIdeal.Operands Cert.Spec

variable (m : (ℓ : Loc nD τ sig) → Buf (Elt Ideal) ℓ) (ρ : Dev nD → PrngReg)

/-- The product matrix: entry (r, o) is the contraction of padded activation row r with padded weight row o. -/
def product (c : Dev nD) : S4096x4096.Idx → EReal :=
  fun i => prefixSum (acts m c) (wts m c) (i 0).val (i 1).val 11264

/-- What a writing-back point (k = 21) writes is its block of the product matrix. -/
theorem flushed_eq (c : Dev nD) (t : Fin cfg0.N) (hf : (cfg0.win 2).flush t = true) :
    (dats m 0 c).flushed 2 t = ((cfg0.win 2).blk t).view.read (Elt Ideal) (product m c) := by
  have hN : t.val < 176 := lt_of_lt_of_eq t.isLt N_0
  have h21 : t.val % 22 = 21 := (flush0_2 t).mp hf
  obtain ⟨-, -, -, -, e4, e5⟩ := Blocks.idx_facts t
  show (cfg0.win 2).cut (grid0.coords t) ((dats m 0 c).after 2 t) = _
  rw [after0_2]
  funext j
  obtain ⟨p, q, rfl⟩ : ∃ (p : Fin 1024) (q : Fin 2048), j = ix2 p q := ⟨j 0, j 1, eq_ix2 j⟩
  have hp := p.isLt
  have hq := q.isLt
  show outsAt0 m c t.val t.isLt (ix2 p q) = product m c (((cfg0.win 2).blk t).view.emb (ix2 p q))
  refine (Accum.outsAt_apply m c t.val t.isLt p q).trans ?_
  have c0 : ((((cfg0.win 2).blk t).view.emb (ix2 p q)) 0).val = 1024 * (t.val / 44) + p.val := by
    show win0_2.index t (0 : Fin 2) * 1024 + 1 * p.val = _
    rw [e4]; omega
  have c1 : ((((cfg0.win 2).blk t).view.emb (ix2 p q)) 1).val = 2048 * (t.val / 22 % 2) + q.val := by
    show win0_2.index t (1 : Fin 2) * 2048 + 1 * q.val = _
    rw [e5]; omega
  show _ = prefixSum (acts m c) (wts m c) ((((cfg0.win 2).blk t).view.emb (ix2 p q)) 0).val ((((cfg0.win 2).blk t).view.emb (ix2 p q)) 1).val 11264
  rw [c0, c1, h21]

/-- An entry of the product matrix lies in point `t`'s output block iff each coordinate is in the block's range. -/
theorem mem_blk (t : Fin cfg0.N) (i : S4096x4096.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_call0_v15).slice (win0_2.rect t)).set ↔ _
  rw [View.set_slice_whole, Rect.mem_set_unit]
  exact Iff.rfl

/-- Every entry (r, o) is written back by the last point of its block's contraction: t = 44 (r / 1024) + 22 (o / 2048) + 21. -/
theorem cover (i : S4096x4096.Idx) : ∃ t : Fin cfg0.N, (cfg0.win 2).flush t = true ∧ i ∈ ((cfg0.win 2).blk t).view.set := by
  have h0 : (i 0).val < 4096 := (i 0).isLt
  have h1 : (i 1).val < 4096 := (i 1).isLt
  obtain ⟨t, ht⟩ : ∃ t : Fin cfg0.N, t.val = 44 * ((i 0).val / 1024) + 22 * ((i 1).val / 2048) + 21 :=
    ⟨⟨44 * ((i 0).val / 1024) + 22 * ((i 1).val / 2048) + 21, lt_of_lt_of_eq (by omega) N_0.symm⟩, rfl⟩
  obtain ⟨-, -, -, -, e4, e5⟩ := Blocks.idx_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 2048 ≤ (i 1).val ∧ (i 1).val < win0_2.index t (1 : Fin 2) * 2048 + 2048
    rw [e5]; omega

/-- So after the run the region's output array is the product matrix. -/
theorem final (c : Dev nD) : (dats m 0 c).arrAt 2 cfg0.N = product m c :=
  (dats m 0 c).arrAt_eq_of_cover 2 (product m c) (flushed_eq m c) cover

/-- The memory the region leaves holds the product matrix at the region's output array. -/
theorem region_array (c : Dev nD) :
    Pipeline.withArrays spec0 c (V0 m c) (fun w => (dats m 0 c).arrAt w cfg0.N) (Proc.devRef .tc main_call0_v15) = product m c :=
  (Pipeline.withArrays_arr spec0 launch0.win.arr_inj c (V0 m c) (fun w => (dats m 0 c).arrAt w cfg0.N) 2).trans (final m c)

/-- The operation after the region reshapes the product matrix to the result's shape. -/
theorem tail_eq (c : Dev nD) :
    Pipeline.afterTail₀ cfgs (dats m) 0 (V0 m) [hostOps1] c main_v0
      = shapeCast S2x2048x4096 (product m c) shapeCasts_S4096x4096_S2x2048x4096 := by
  unfold Pipeline.afterTail₀
  show StableHlo.after hostOps1 _ (Proc.devRef .tc main_v0) = _
  after_results
  funext i
  show shapeCast S2x2048x4096 (Pipeline.withArrays spec0 c (V0 m c) (fun w => (dats m 0 c).arrAt w cfg0.N)
    (Proc.devRef .tc main_call0_v15)) shapeCasts_S4096x4096_S2x2048x4096 i = _
  rw [region_array m c]

/-- The reshaped product matrix, entry (b, s, o), is row 2048 b + s, column o of the product matrix: the layer's entry. -/
theorem result_eq (c : Dev nD) :
    shapeCast S2x2048x4096 (product m c) shapeCasts_S4096x4096_S2x2048x4096 = linear (acts m c) (wts m c) := by
  funext i
  have h0 : (i 0).val < 2 := (i 0).isLt
  have h1 : (i 1).val < 2048 := (i 1).isLt
  have h2 : (i 2).val < 4096 := (i 2).isLt
  refine (shapeCast_apply (s := S4096x4096) (t := S2x2048x4096) (product m c) shapeCasts_S4096x4096_S2x2048x4096 i
    (ix2 (⟨2048 * (i 0).val + (i 1).val, by omega⟩ : Fin 4096) (⟨(i 2).val, h2⟩ : Fin 4096)) ?_).trans ?_
  · rw [Shape.rowMajor_val_two, Shape.rowMajor_val_three]
    show (2048 * (i 0).val + (i 1).val) * 4096 + (i 2).val = ((i 0).val * 2048 + (i 1).val) * 4096 + (i 2).val
    omega
  · exact prefix_full (acts m c) (wts m c) (⟨(i 0).val, h0⟩ : Fin 2) (⟨(i 1).val, h1⟩ : Fin 2048) (⟨(i 2).val, h2⟩ : Fin 4096)

/-- The idealized kernel's run, read: the result is the linear layer of the activations and the dequantised weights,
    and the four arguments end as launched. -/
theorem run : θ_run defs (onTc (τ := τ) (main (F := Ideal))) ⟨m, fun _ => 0, ρ⟩ fun r => ∀ c : Dev nD,
      r.2.mem ((c.tc : Thread nD τ).loc main_v0) = linear (acts m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v0 (Pipeline.mem_restRefs_of main_v0 (by decide) (by decide))).trans (tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefSide.lean ====
/-
  The reference program's result is the linear layer.

  The reference contracts the last axis of the activations x[2, 2048, 11008] with the last axis of its weight matrix
  w[4096, 11008]: entry (b, s, o) of its result is Σ_{k < 11008} x[b, s, k] · w[o, k]. The weight matrix is kept as the
  reference's own stage (gather, reshape, scale), never opened.
-/
import proofs.«102673_j30021821399184_2_alg».proof.Defs
import proofs.«102673_j30021821399184_2_alg».proof.Proof.Gen.ReferenceIdeal.Run
import proofs.«102673_j30021821399184_2_alg».proof.Proof.Gen.ReferenceIdeal.Read
import proofs.«102673_j30021821399184_2_alg».proof.Proof.Spec

noncomputable section

open Idealize.ShloMosaic Idealize.ShloMosaic.ValueIdx

namespace Cert.RefSide

open Cert.ReferenceIdeal Cert.ReferenceIdeal.Gen Cert.ReferenceIdeal.Read

/-- The reference's last stage, index by index, is the layer of its activations and its weight stage. -/
theorem result_eq (x0 : (⟨S2x2048x11008, .f32⟩ : BufTy).Contents (Elt Ideal)) (x1 : (⟨S5636096, .i32⟩ : BufTy).Contents (Elt Ideal))
    (x2 : (⟨S32768x8, .f32⟩ : BufTy).Contents (Elt Ideal)) (x3 : (⟨S4096x1, .f32⟩ : BufTy).Contents (Elt Ideal)) :
    val_main_v10 (F := Ideal) x0 x1 x2 x3 = Cert.Spec.linear x0 (val_main_v9 (F := Ideal) x1 x2 x3) := by
  funext i
  rw [val_main_v10_apply]
  unfold Cert.Spec.linear Cert.Spec.linearAt
  refine Finset.sum_congr rfl fun k _ => ?_
  have el : lidx_main_v10 i k = ix3 (⟨(i 0).val, (i 0).isLt⟩ : Fin 2) (⟨(i 1).val, (i 1).isLt⟩ : Fin 2048) k :=
    funext fun a => by
      match a with
      | ⟨0, _⟩ => rfl
      | ⟨1, _⟩ => rfl
      | ⟨2, _⟩ => rfl
  have er : ridx_main_v10 i k = ix2 (⟨(i 2).val, (i 2).isLt⟩ : Fin 4096) k :=
    funext fun a => by
      match a with
      | ⟨0, _⟩ => rfl
      | ⟨1, _⟩ => rfl
  rw [el, er]

end Cert.RefSide

end
-- ==== Proof.lean ====
/-
  A vector-quantised linear layer: the kernel and its reference compute the same function over the extended reals.

  Both programs dequantise the same weight matrix w[4096, 11008] (rows of a code book gathered by an index array,
  reshaped, each row scaled) and apply it to activations x[2, 2048, 11008]:
      y[b, s, o] = Σ_{k < 11008} x[b, s, k] · w[o, k].
  The reference contracts the last axes directly. The kernel reshapes x to 4096 rows, pads both operands with 256 zero
  columns to 11264 = 22 · 512, and accumulates 22 products of 1024 x 512 by 2048 x 512 blocks into each 1024 x 2048 output
  block, starting from zero, then reshapes the 4096 x 4096 product back. The two agree because a change of float format
  is the identity at the ideal values, the padded terms are 0 · 0 = 0, and a sum may be split into consecutive blocks:
  only associativity and commutativity of addition and the neutral 0 are used, so the inputs' finiteness is never needed.

  The modules: Sums (splitting a sum over an initial segment), Spec (the layer and the padded contraction), Body (one
  grid point as a value), Operands (the padded operands entry by entry), Blocks (which entries a point sees), Accum (the
  output block after each point, by induction), Result (the product matrix after the run, and the reshaped result),
  RefSide (the reference's result is the layer).
-/
import proofs.«102673_j30021821399184_2_alg».proof.Defs
import proofs.«102673_j30021821399184_2_alg».proof.Proof.Gen.Kernel
import proofs.«102673_j30021821399184_2_alg».proof.Proof.Gen.Kernel.Frame
import proofs.«102673_j30021821399184_2_alg».proof.Proof.Gen.KernelIdeal
import proofs.«102673_j30021821399184_2_alg».proof.Proof.Gen.KernelIdeal.Frame
import proofs.«102673_j30021821399184_2_alg».proof.Proof.Gen.ReferenceIdeal
import proofs.«102673_j30021821399184_2_alg».proof.Proof.Gen.ReferenceIdeal.Run
import proofs.«102673_j30021821399184_2_alg».proof.Proof.Gen.ReferenceIdeal.Read
import proofs.«102673_j30021821399184_2_alg».proof.Proof.Gen.Pre_finite_inputs
import proofs.«102673_j30021821399184_2_alg».proof.Proof.Result
import proofs.«102673_j30021821399184_2_alg».proof.Proof.RefSide
import Idealize.ShloMosaic.Adequacy
import Idealize.ShloMosaic.Init

noncomputable section

namespace Cert.Proof

open Idealize.ShloMosaic Idealize.SL.Sem

/-- The kernel as printed runs to the end without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the linear layer of the activations and
    the dequantised weights: the kernel by its block-accumulated padded contraction, the reference by its contraction. -/
theorem algebraic : Cert.algebraic_KernelIdeal_ReferenceIdeal := by
  intro m ρ m' ρ' _ hagree
  refine ⟨fun c => Cert.Spec.linear (Cert.KernelIdeal.Operands.acts m c) (Cert.KernelIdeal.Operands.wts m c),
    Cert.KernelIdeal.Result.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v10_eq _ _ _ _)).trans ?_
  rw [Cert.RefSide.result_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
